-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S128x4096 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8x2048x4096 .f32) (main_arg1 : FVec F S4096x4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8x2048x4096 : Shape := ⟨3, ![8, 2048, 4096]⟩
abbrev S4096x4096 : Shape := ⟨2, ![4096, 4096]⟩
abbrev S_ : Shape := ⟨0, ![]⟩
abbrev S16384x4096 : Shape := ⟨2, ![16384, 4096]⟩
abbrev S128x4096 : Shape := ⟨2, ![128, 4096]⟩

abbrev nBuf : Space → Nat
  | .hbm => 20
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S4096x4096, .bf16⟩
  | .hbm, ⟨16, _⟩ => ⟨S4096x4096, .bf16⟩
  | .hbm, ⟨17, _⟩ => ⟨S16384x4096, .f32⟩
  | .hbm, ⟨18, _⟩ => ⟨S16384x4096, .f32⟩
  | .hbm, ⟨19, _⟩ => ⟨S8x2048x4096, .f32⟩
  | .local _ .vmem, ⟨0, _⟩ => ⟨S128x4096, .f32⟩
  | .local _ .vmem, ⟨1, _⟩ => ⟨S128x4096, .f32⟩
  | .local _ .vmem, ⟨2, _⟩ => ⟨S4096x4096, .bf16⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  bitsLt_bf16_f32 : FTy.bits .bf16 < FTy.bits .f32
  transposes_S4096x4096_S4096x4096_1_0 : S4096x4096.Transposes [1, 0] S4096x4096
  shapeCasts_S8x2048x4096_S16384x4096 : S8x2048x4096.ShapeCasts S16384x4096
  inb_S128x4096_S128x4096_0_0 : ∀ a, (![0, 0] : Fin 2 → Nat) a + S128x4096.size a ≤ S128x4096.size a
  h_S128x4096 : 0 < S128x4096.numel
  shapeCasts_S128x4096_S128x4096 : S128x4096.ShapeCasts S128x4096
  inb_S4096x4096_S4096x4096_0_0 : ∀ a, (![0, 0] : Fin 2 → Nat) a + S4096x4096.size a ≤ S4096x4096.size a
  h_S4096x4096 : 0 < S4096x4096.numel
  shapeCasts_S4096x4096_S4096x4096 : S4096x4096.ShapeCasts S4096x4096
  shapeCasts_S16384x4096_S8x2048x4096 : S16384x4096.ShapeCasts S8x2048x4096
  dot_S128x4096_S4096x4096_S128x4096_1_0_0_1_n_n_wf : DotDims.WF S128x4096 S4096x4096 S128x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S16384x4096.size a
  hwx0_0 : ∀ i : grid0.Coords, EltTy.bits .f32 = 32 ∨ (Rect.block (s := S16384x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x4096.size a ≤ S4096x4096.size a
  hwx0_1 : ∀ i : grid0.Coords, EltTy.bits .bf16 = 32 ∨ (Rect.block (s := S4096x4096) S4096x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x4096.size a ≤ S16384x4096.size a
  hwx0_2 : ∀ i : grid0.Coords, EltTy.bits .f32 = 32 ∨ (Rect.block (s := S16384x4096) S128x4096.size (cc0_transform_2 i) (hinb0_2 i)).WholeWords (EltTy.packing .f32)

variable [Facts₀]

def dot_S128x4096_S4096x4096_S128x4096_1_0_0_1_n_n : DotDims S128x4096 S4096x4096 S128x4096 where
  lhsContracting := [1]
  rhsContracting := [0]
  lhsNonContracting := [0]
  rhsNonContracting := [1]
  lhsBatch := []
  rhsBatch := []
  wf := dot_S128x4096_S4096x4096_S128x4096_1_0_0_1_n_n_wf

abbrev win0_0 : Pipeline.Window sig grid0 :=
  Pipeline.Window.ofSpec (Memref.whole main_v12) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4096x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S128x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096x4096, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .i1⟩
  | .hbm, ⟨13, _⟩ => ⟨S4096x4096, .f32⟩
  | .hbm, ⟨14, _⟩ => ⟨S4096x4096, .f32⟩
  | .hbm, ⟨15, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_cst_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  reducesTo_S4096x4096_S_d0_1 : S4096x4096.ReducesTo [0, 1] S_
  h_S_ : 0 < S_.numel
  bcast_S_S4096x4096 : S_.BroadcastsInDim S4096x4096 (![] : Fin 0 → Fin S4096x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.LibPlainMatmul.lean ====
/-
  A plain matrix product read at an entry, over the extended reals.

  For dimension numbers that contract the left operand's columns with the right operand's rows and have
  no batch axes (`[1] × [0]`, free axes `[0]` and `[1]`), an `M × K` by `K × N` product accumulated into
  the zero matrix is, at entry `(a, b)`, the sum over `k` of `l (a, k) · r (k, b)`. The statement takes
  the dimension-number record as a variable with its six lists given by hypotheses, so it applies to any
  printed record of this form, whatever its name and extents.
-/
import Idealize.ShloMosaic.PureOps.Ideal.Laws
import Idealize.ShloMosaic.Lib.ValueIdx

noncomputable section

namespace Cert.LibPlainMatmul

open Idealize.ShloMosaic Idealize.ShloMosaic.ValueIdx

variable {M K N : Nat} (D : DotDims ⟨2, ![M, K]⟩ ⟨2, ![K, N]⟩ ⟨2, ![M, N]⟩)

/-- With no batch axes and left free axis `0`, the left operand's row is the result's row. -/
theorem lhs_row (hln : D.lhsNonContracting = [0]) (hlb : D.lhsBatch = [])
    (j : (⟨2, ![M, N]⟩ : Shape).Idx) (q : D.contr.Idx) : (D.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln])

/-- With no batch axes, one left free axis and right free axis `1`, the right operand's column is the result's column. -/
theorem rhs_col (hln : D.lhsNonContracting = [0]) (hrn : D.rhsNonContracting = [1]) (hlb : D.lhsBatch = [])
    (hrb : D.rhsBatch = []) (j : (⟨2, ![M, N]⟩ : Shape).Idx) (q : D.contr.Idx) : (D.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (p p' : Nat) (hp : p < (⟨2, ![M, N]⟩ : Shape).rank) (hp' : p' < (⟨2, ![M, N]⟩ : Shape).rank), p = p' →
      (j ⟨p, hp⟩).val = (j ⟨p', hp'⟩).val := fun p p' hp hp' h => by subst h; rfl
  exact key _ _ _ _ (by simp [hlb, hln, hrn])

/-- The one contracted axis has extent `K`. -/
theorem contr_rank (hlc : D.lhsContracting = [1]) : D.contr.rank = 1 := by rw [D.rank_contr, hlc]; rfl

theorem contr_size (hlc : D.lhsContracting = [1]) :
    D.contr.size ⟨0, by rw [contr_rank D hlc]; exact Nat.one_pos⟩ = K := by
  rw [D.size_contr 0 (by rw [hlc]; exact Nat.one_pos)]
  simp [hlc]

/-- A plain `M × K` by `K × N` product into the zero matrix, at entry `(a, b)`: `∑ k, l (a, k) · r (k, b)`. -/
theorem matmul_zero_apply {φ₁ φ₂ : FTy}
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![M, K]⟩ φ₁) (r : FVec Ideal ⟨2, ![K, N]⟩ φ₂)
    (a : Fin M) (b : Fin N) :
    FloatOps.matmul D prec l r (constant (F := Ideal) ⟨2, ![M, N]⟩ .f32 0x00000000#32) (ix2 a b)
      = ∑ k : Fin K, l (ix2 a k) * r (ix2 k b) := by
  rw [Ideal.matmul_constant_zero_apply,
    ← Equiv.sum_comp (contrEquiv1 D K (contr_rank D hlc) (contr_size D hlc)).symm]
  refine Finset.sum_congr rfl fun k _ => ?_
  have hk := contrEquiv1_symm_val D K (contr_rank D hlc) (contr_size D hlc) k
  have el : D.lhsIdx (ix2 a b) ((contrEquiv1 D K (contr_rank D hlc) (contr_size D hlc)).symm k) = ix2 a k :=
    funext fun c => Fin.ext (by
      match c with
      | ⟨0, _⟩ => exact lhs_row D hln hlb _ _
      | ⟨1, _⟩ => exact (D.lhsIdx_val_of_single hlc _ _).trans hk)
  have er : D.rhsIdx (ix2 a b) ((contrEquiv1 D K (contr_rank D hlc) (contr_size D hlc)).symm k) = ix2 k b :=
    funext fun c => Fin.ext (by
      match c with
      | ⟨0, _⟩ => exact (D.rhsIdx_val_of_single hrc _ _).trans hk
      | ⟨1, _⟩ => exact rhs_col D hln hrn hlb hrb _ _)
  rw [el, er]

end Cert.LibPlainMatmul

end
-- ==== Proof.LibReadBack.lean ====
/-
  Reading a buffer back after stores that covered it.

  A kernel body that stores a whole block into a scratch buffer more than once, reading it back in between, leaves
  a list of stores (last first) all through the whole-shape rectangle at zero offsets.  A load through that same
  rectangle then reads the LAST store's payload, whatever the earlier stores were: the last store covers every
  index.  (The library states this for a list of one store; an accumulator written twice needs it for a longer one.)
-/
import Idealize.ShloMosaic.Lib.Pipeline.Value

noncomputable section

namespace Cert.LibReadBack

open Idealize.ShloMosaic Idealize.ShloMosaic.View

variable {Val : EltTy → Type} {S : Shape} {e : EltTy}

/-- A load through the whole-shape rectangle at zero offsets (however the zeros are spelt), of what a list of
    stores left whose last store went through that same rectangle, reads that last store's payload. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩),
    View.canon_cons_unit_zero rfl, View.ld_unit_zero rfl]

end Cert.LibReadBack

end
-- ==== Proof.BodyValue.lean ====
/-
  What one grid point leaves in the output's staging buffer.

  The body reads its row block X (128 rows of 4096 entries) and the whole transposed weight Wt (4096 by 4096),
  stores the product of X's leading part with Wt into an accumulator, reads the accumulator back, adds the product
  of X's remainder (X minus its leading part) with Wt, stores the sum, reads it back once more and stores that to
  the output block.  Each store covers the whole accumulator, so each read-back is the value just stored: the
  output block is the second stored value with the first in the accumulator's place.

  Read as exact extended reals the leading part of X is X, a product into the zero matrix is the plain sum over
  the contracted axis, and the block's entry (r, o) is
      sum over k of X(r,k) * Wt(k,o)  +  sum over k of (X(r,k) - X(r,k)) * Wt(k,o).
-/
import proofs.«176859_j47072841564532_2_alg».proof.Proof.Gen.KernelIdeal.Frame
import proofs.«176859_j47072841564532_2_alg».proof.Proof.LibPlainMatmul
import proofs.«176859_j47072841564532_2_alg».proof.Proof.LibReadBack
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem
open Idealize.ShloMosaic.ValueIdx

namespace Cert.KernelIdeal.BodyValue

open Cert.KernelIdeal Cert.KernelIdeal.Gen

variable {F : FTy → Type} [FloatOps F]

/-- The zero offsets of a rank-two rectangle, however spelt. -/
theorem hz : (![0, 0] : Fin 2 → Nat) = fun _ => 0 := funext fun a => by fin_cases a <;> rfl

/-- The output block a point leaves: the second accumulator value, computed from the row block, the weight and
    the first accumulator value. -/
theorem out_block (c : Dev nD) (i : grid0.Coords) (a1 : Memref sig .tc .vmem S128x4096 .f32) (h1 : a1.IsWhole)
    (a2 : Memref sig .tc .vmem S4096x4096 .bf16) (h2 : a2.IsWhole) (a3 : Memref sig .tc .vmem S128x4096 .f32) (h3 : a3.IsWhole)
    (a4 : Memref sig .tc .vmem S128x4096 .f32) (h4 : a4.IsWhole)
    (x0 : Vec F S128x4096 .f32) (x1 : Vec F S4096x4096 .bf16) :
    out0_A_2 c i a1 h1 a2 h2 a3 h3 a4 h4 x0 x1 = k0_pay4 x0 x1 (k0_pay3 x0 x1) := by
  unfold out0_A_2
  rw [View.read_writes_eq_canon _ _ _ (cover0_A_2 c i a1 h1 a2 h2 a3 h3 a4 h4 x0 x1)]
  unfold kernelRun0_A
  dsimp only
  sl_unfold_words
  rw [View.canon_unit_zero hz, Cert.LibReadBack.readCov_cons_unit_zero (S := S128x4096) _ hz,
    View.readCov_unit_zero (S := S128x4096) _ hz]
  simp only [View.readAt_eq_ld, h1.read_unread, h2.read_unread, View.ld_unit_zero (S := S128x4096) hz,
    View.ld_unit_zero (S := S4096x4096) hz]

/-- The first accumulator value at entry (r, o), as exact extended reals: the row of X against the column of Wt. -/
theorem first_apply (x0 : Vec Ideal S128x4096 .f32) (x1 : Vec Ideal S4096x4096 .bf16) (r : Fin 128) (o : Fin 4096) :
    k0_pay3 x0 x1 (ix2 r o) = ∑ k : Fin 4096, x0 (ix2 r k) * x1 (ix2 k o) := by
  unfold k0_pay3 k0_pay1 k0_pay2
  simp only [shapeCast_self]
  exact Cert.LibPlainMatmul.matmul_zero_apply dot_S128x4096_S4096x4096_S128x4096_1_0_0_1_n_n rfl rfl rfl rfl rfl rfl
    none (truncf .bf16 x0 bitsLt_bf16_f32) x1 r o

/-- The second accumulator value at entry (r, o): the accumulator's entry plus the row of remainders of X against
    the column of Wt. -/
theorem second_apply (x0 : Vec Ideal S128x4096 .f32) (x1 : Vec Ideal S4096x4096 .bf16) (acc : Vec Ideal S128x4096 .f32)
    (r : Fin 128) (o : Fin 4096) :
    k0_pay4 x0 x1 acc (ix2 r o) = acc (ix2 r o) + ∑ k : Fin 4096, (x0 (ix2 r k) - x0 (ix2 r k)) * x1 (ix2 k o) := by
  unfold k0_pay4 k0_pay1 k0_pay2
  simp only [shapeCast_self]
  refine (addf_apply _ _ _).trans ?_
  exact congrArg (acc (ix2 r o) + ·)
    (Cert.LibPlainMatmul.matmul_zero_apply dot_S128x4096_S4096x4096_S128x4096_1_0_0_1_n_n rfl rfl rfl rfl rfl rfl
      none (truncf .bf16 (subf x0 x0) bitsLt_bf16_f32) x1 r o)

/-- The output block at entry (r, o) as exact extended reals. -/
theorem block_apply (x0 : Vec Ideal S128x4096 .f32) (x1 : Vec Ideal S4096x4096 .bf16) (r : Fin 128) (o : Fin 4096) :
    k0_pay4 x0 x1 (k0_pay3 x0 x1) (ix2 r o)
      = (∑ k : Fin 4096, x0 (ix2 r k) * x1 (ix2 k o)) + ∑ k : Fin 4096, (x0 (ix2 r k) - x0 (ix2 r k)) * x1 (ix2 k o) := by
  rw [second_apply, first_apply]

end Cert.KernelIdeal.BodyValue

end
-- ==== Proof.Spec.lean ====
/-
  The result as ONE function of the input x (8 by 2048 by 4096) and the ternary weight W (4096 by 4096, rows
  indexed by the output feature):
      linear x W (b, s, o) = sum over k of x(b, s, k) * W(o, k).

  The kernel reaches it through two re-arrangements: x flattened to 16384 rows (row 2048*b + s), W transposed, the
  2-D product  prod2 X Wt (r, o) = sum over k of X(r, k) * Wt(k, o),  and the rows unflattened again.  The layout
  identity below says these compose to linear x W: flattening reads the same row-major position, and the transpose
  swaps the weight's two coordinates.
-/
import Idealize.ShloMosaic.Lib.Pipeline.Value
import Idealize.ShloMosaic.Lib.ValueIdx
import Idealize.ShloMosaic.Lib.ValueLayout

noncomputable section

open Idealize.ShloMosaic Idealize.ShloMosaic.ValueIdx

namespace Cert.Spec

variable {α : Type}

/-- A three-axis array recast with its first two axes merged, read at row p*B + q: the entry (p, q, k). -/
theorem flatten_apply {A B C M : ℕ} (x : (⟨3, ![A, B, C]⟩ : Shape).Idx → α)
    (h : (⟨3, ![A, B, C]⟩ : Shape).ShapeCasts ⟨2, ![M, C]⟩) (p : Fin A) (q : Fin B) (k : Fin C) (r : Fin M)
    (hr : r.val = p.val * B + q.val) :
    shapeCast ⟨2, ![M, C]⟩ x h (ix2 r k) = x (ix3 p q k) :=
  shapeCast_apply x h _ _ (by
    rw [Shape.rowMajor_val_three, Shape.rowMajor_val_two]
    show (p.val * B + q.val) * C + k.val = r.val * C + k.val
    rw [hr])

/-- A two-axis array recast with its first axis split in two, read at (p, q, k): the entry of row p*B + q. -/
theorem unflatten_apply {A B C M : ℕ} (y : (⟨2, ![M, C]⟩ : Shape).Idx → α)
    (h : (⟨2, ![M, C]⟩ : Shape).ShapeCasts ⟨3, ![A, B, C]⟩) (p : Fin A) (q : Fin B) (k : Fin C) (r : Fin M)
    (hr : r.val = p.val * B + q.val) :
    shapeCast ⟨3, ![A, B, C]⟩ y h (ix3 p q k) = y (ix2 r k) :=
  shapeCast_apply y h _ _ (by
    rw [Shape.rowMajor_val_three, Shape.rowMajor_val_two]
    show r.val * C + k.val = (p.val * B + q.val) * C + k.val
    rw [hr])

/-- The input's shape, its flattened shape, and the weight's. -/
abbrev SX : Shape := ⟨3, ![8, 2048, 4096]⟩
abbrev SM : Shape := ⟨2, ![16384, 4096]⟩
abbrev SW : Shape := ⟨2, ![4096, 4096]⟩

/-- The input entry and the weight entry that meet in term k of the result at i = (b, s, o). -/
def lix (i : SX.Idx) (k : Fin 4096) : SX.Idx := ix3 ⟨(i 0).val, (i 0).isLt⟩ ⟨(i 1).val, (i 1).isLt⟩ k
def rix (i : SX.Idx) (k : Fin 4096) : SW.Idx := ix2 ⟨(i 2).val, (i 2).isLt⟩ k

/-- The linear layer: each output entry is the input's feature row against the weight's row of that output. -/
def linear (x : SX.Idx → EReal) (W : SW.Idx → EReal) : SX.Idx → EReal :=
  fun i => ∑ k : Fin 4096, x (lix i k) * W (rix i k)

/-- A flattened index's row and column as plain bounded numbers. -/
def rowOf (j : SM.Idx) : Fin 16384 := ⟨(j 0).val, (j 0).isLt⟩
def colOf (j : SM.Idx) : Fin 4096 := ⟨(j 1).val, (j 1).isLt⟩

/-- The 2-D product of the flattened input with the transposed weight. -/
def prod2 (X : SM.Idx → EReal) (Wt : SW.Idx → EReal) : SM.Idx → EReal :=
  fun j => ∑ k : Fin 4096, X (ix2 (rowOf j) k) * Wt (ix2 k (colOf j))

/-- Flatten, multiply by the transposed weight, unflatten: the linear layer. -/
theorem unflatten_prod2 (x : SX.Idx → EReal) (W : SW.Idx → EReal) (h1 : SX.ShapeCasts SM) (h2 : SM.ShapeCasts SX)
    (hT : SW.Transposes [1, 0] SW) :
    shapeCast SX (prod2 (shapeCast SM x h1) (transpose SW [1, 0] W hT)) h2 = linear x W := by
  funext i
  obtain ⟨b, s, o, rfl⟩ : ∃ (b : Fin 8) (s : Fin 2048) (o : Fin 4096), i = ix3 b s o := ⟨i 0, i 1, i 2, eq_ix3 i⟩
  have hb : b.val < 8 := b.isLt
  have hs : s.val < 2048 := s.isLt
  refine (unflatten_apply _ h2 b s o ⟨b.val * 2048 + s.val, by omega⟩ rfl).trans ?_
  unfold prod2 linear
  refine Finset.sum_congr rfl fun k _ => ?_
  have e1 : shapeCast SM x h1 (ix2 (rowOf (ix2 (⟨b.val * 2048 + s.val, by omega⟩ : Fin 16384) o)) k) = x (lix (ix3 b s o) k) :=
    flatten_apply x h1 b s k _ rfl
  have e2 : transpose SW [1, 0] W hT (ix2 k (colOf (ix2 (⟨b.val * 2048 + s.val, by omega⟩ : Fin 16384) o))) = W (rix (ix3 b s o) k) :=
    transpose_ix2_apply W hT k o
  rw [e1, e2]

end Cert.Spec

end
-- ==== Proof.SplitLaw.lean ====
/-
  The one law that joins the kernel's two products to the reference's single product.

  The kernel splits each row entry x into a leading part and the remainder x - (leading part), multiplies both
  parts by the same weight column and adds the two products.  Read as exact extended reals the leading part IS x,
  so the remainder is x - x.  For a REAL x that is 0, the second product is a sum of zeros, and the total is the
  single product.  On the extended reals x - x is not 0 at an infinity, which is where finiteness of the input is
  used; the weights may be any extended reals (0 times anything is 0 there).
-/
import Mathlib.Data.EReal.Operations
import Mathlib.Algebra.BigOperators.Fin

namespace Cert.SplitLaw

/-- A real number minus itself is zero, inside the extended reals. -/
theorem coe_sub_self (r : ℝ) : ((r : EReal) - (r : EReal)) = 0 := by
  rw [← EReal.coe_sub, sub_self, EReal.coe_zero]

/-- A row of reals against any weights: the product with the row plus the product with the row's
    remainder (each entry minus itself) is the product with the row. -/
theorem split_sum {K : ℕ} (a w : Fin K → EReal) (ha : ∀ k, ∃ r : ℝ, a k = (r : EReal)) :
    (∑ k, a k * w k) + (∑ k, (a k - a k) * w k) = ∑ k, a k * w k := by
  have h0 : ∀ k, (a k - a k) * w k = 0 := fun k => by
    obtain ⟨r, hr⟩ := ha k
    rw [hr, coe_sub_self, zero_mul]
  simp only [h0, Finset.sum_const_zero, add_zero]

end Cert.SplitLaw
-- ==== Proof.RegionValue.lean ====
/-
  The idealized kernel's result, read off its run.

  Before the region the host computes the ternary weight  W = sign(w) * [ |w| > 0.7 * mean|w| ]  (as a 0/1 number),
  transposes it, and flattens x to 16384 rows.  Point t of the grid reads rows 128*t .. 128*t+127 of the flattened
  x and the whole transposed weight, and writes back rows 128*t .. 128*t+127 of the output; the 128 points tile the
  16384 rows.  After the region the host unflattens the rows.

  With x real, a point's block is the block of ONE whole-array function, the 2-D product of the flattened x with
  the transposed weight (the body's second product, over the remainders x - x, is a sum of zeros); so the array
  after the run is that product, and the unflattened result is the linear layer  sum over k of x(b,s,k) * W(o,k).
-/
import proofs.«176859_j47072841564532_2_alg».proof.Proof.BodyValue
import proofs.«176859_j47072841564532_2_alg».proof.Proof.Spec
import proofs.«176859_j47072841564532_2_alg».proof.Proof.SplitLaw
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.RegionValue

open Cert.KernelIdeal Cert.KernelIdeal.Gen Cert.Spec

/-- The ternary weight as the host computes it from w: the sign of each entry where its absolute value exceeds
    0.7 times the mean absolute value (the sum from zero over all 2^24 entries, divided by 2^24), zero elsewhere. -/
def tern {F : FTy → Type} [FloatOps F] (w : FVec F S4096x4096 .f32) : FVec F S4096x4096 .f32 :=
  mulf (Host.sign w) (uitofp .f32 (cmpf .ogt (Host.absf w) (broadcastInDim S4096x4096 ![] bcast_S_S4096x4096
    (mulf (constant S_ .f32 0x3F333333#32) (Host.divf (Host.reduceAdd (Host.absf w) (constant S_ .f32 0x00000000#32)
      reducesTo_S4096x4096_S_d0_1 h_S_) (constant S_ .f32 0x4B800000#32))))))

variable (m : (ℓ : Loc nD τ sig) → Buf (Elt Ideal) ℓ) (ρ : Dev nD → PrngReg)

/-! ## The arrays as the region finds them -/

/-- The region's first array is x flattened to 16384 rows. -/
theorem V_x (c : Dev nD) : V m c main_v12
    = (shapeCast S16384x4096 (m ((c : Thread nD τ).loc main_arg0)) shapeCasts_S8x2048x4096_S16384x4096
        : FVec Ideal S16384x4096 .f32) := by
  show StableHlo.after hostOps0 (fun b => m (c, b)) (Proc.devRef .tc main_v12) = _
  after_results
  rfl

/-- The region's second array is the ternary weight, transposed. -/
theorem V_w (c : Dev nD) : V m c main_v11
    = (transpose S4096x4096 [1, 0] (truncf .bf16 (tern (F := Ideal) (m ((c : Thread nD τ).loc main_arg1))) bitsLt_bf16_f32)
        transposes_S4096x4096_S4096x4096_1_0 : FVec Ideal S4096x4096 .bf16) := by
  show StableHlo.after hostOps0 (fun b => m (c, b)) (Proc.devRef .tc main_v11) = _
  after_results
  rfl

/-! ## The blocks -/

/-- The printed index maps over the grid: x's and the output's windows are at row block t, column block 0; the
    weight's window never moves. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry (r, k) of x's block at point t is the flattened x at row 128*t + r, column k. -/
theorem xblk_apply (c : Dev nD) (t : Fin cfg0.N) (r : Fin 128) (k : Fin 4096) (i : S16384x4096.Idx)
    (hi0 : (i 0).val = t.val * 128 + r.val) (hi1 : (i 1).val = k.val) :
    iblk m c 0 t (ix2 r k) = V m c main_v12 i := by
  obtain ⟨e0, e1, -⟩ := idx_facts t
  unfold iblk
  rw [View.read_apply]
  show V m c main_v12 (((cfg0.win 0).blk t).view.emb (ix2 r k)) = V m c main_v12 i
  refine congrArg (V m c main_v12) (funext fun a => Fin.ext ?_)
  match a with
  | ⟨0, _⟩ => show win0_0.index t (0 : Fin 2) * 128 + 1 * r.val = (i 0).val; omega
  | ⟨1, _⟩ => show win0_0.index t (1 : Fin 2) * 4096 + 1 * k.val = (i 1).val; omega

/-- Entry (k, o) of the weight's block at any point is the transposed weight at (k, o). -/
theorem wblk_apply (c : Dev nD) (t : Fin cfg0.N) (k o : Fin 4096) :
    iblk m c 1 t (ix2 k o) = V m c main_v11 (ix2 k o) := by
  obtain ⟨-, -, e2, e3, -⟩ := idx_facts t
  unfold iblk
  rw [View.read_apply]
  show V m c main_v11 (((cfg0.win 1).blk t).view.emb (ix2 k o)) = V m c main_v11 (ix2 k o)
  refine congrArg (V m c main_v11) (funext fun a => Fin.ext ?_)
  match a with
  | ⟨0, _⟩ => show win0_1.index t (0 : Fin 2) * 4096 + 1 * k.val = k.val; omega
  | ⟨1, _⟩ => show win0_1.index t (1 : Fin 2) * 4096 + 1 * o.val = o.val; omega

/-- A block of the body's result, entry by entry, for any row block X of a real array A and any weight block: the
    2-D product of A with the weight at the array index i the entry (r, o) sits at. -/
theorem block_entry (X : Vec Ideal S128x4096 .f32) (Wt : Vec Ideal S4096x4096 .bf16)
    (A : S16384x4096.Idx → EReal) (B : S4096x4096.Idx → EReal) (r : Fin 128) (o : Fin 4096) (i : S16384x4096.Idx)
    (hX : ∀ k : Fin 4096, X (ix2 r k) = A (ix2 (rowOf i) k))
    (hW : ∀ k : Fin 4096, Wt (ix2 k o) = B (ix2 k (colOf i)))
    (hA : ∀ k : Fin 4096, ∃ q : ℝ, A (ix2 (rowOf i) k) = (q : EReal)) :
    k0_pay4 X Wt (k0_pay3 X Wt) (ix2 r o) = prod2 A B i := by
  rw [BodyValue.block_apply]
  unfold prod2
  have h1 : ∀ k : Fin 4096, X (ix2 r k) * Wt (ix2 k o) = A (ix2 (rowOf i) k) * B (ix2 k (colOf i)) :=
    fun k => by rw [hX, hW]
  have h2 : ∀ k : Fin 4096, (X (ix2 r k) - X (ix2 r k)) * Wt (ix2 k o)
      = (A (ix2 (rowOf i) k) - A (ix2 (rowOf i) k)) * B (ix2 k (colOf i)) := fun k => by rw [hX, hW]
  rw [Finset.sum_congr rfl (fun k _ => h1 k), Finset.sum_congr rfl (fun k _ => h2 k)]
  exact Cert.SplitLaw.split_sum (fun k => A (ix2 (rowOf i) k)) (fun k => B (ix2 k (colOf i))) hA

/-- WHAT POINT t WRITES BACK is block t of the 2-D product of the flattened x with the transposed weight. -/
theorem flushed_eq (c : Dev nD) (hx : ∀ i, ∃ q : ℝ, (V m c main_v12 : Vec Ideal S16384x4096 .f32) i = (q : EReal))
    (t : Fin cfg0.N) :
    (dats m 0 c).flushed 2 t
      = ((cfg0.win 2).blk t).view.read (Elt Ideal) (prod2 (V m c main_v12) (V m c main_v11)) := by
  show (cfg0.win 2).cut (grid0.coords t) ((dats m 0 c).after 2 t) = _
  rw [after0_2]
  unfold outsAt0
  rw [BodyValue.out_block]
  obtain ⟨-, -, -, -, e4, e5⟩ := idx_facts t
  funext j
  obtain ⟨r, o, rfl⟩ : ∃ (r : Fin 128) (o : Fin 4096), j = ix2 r o := ⟨j 0, j 1, eq_ix2 j⟩
  show k0_pay4 (iblk m c 0 t) (iblk m c 1 t) (k0_pay3 (iblk m c 0 t) (iblk m c 1 t)) (ix2 r o)
    = prod2 (V m c main_v12) (V m c main_v11) (((cfg0.win 2).blk t).view.emb (ix2 r o))
  have hrow : (rowOf (((cfg0.win 2).blk t).view.emb (ix2 r o))).val = t.val * 128 + r.val := by
    show win0_2.index t (0 : Fin 2) * 128 + 1 * r.val = _; omega
  have hcol : (colOf (((cfg0.win 2).blk t).view.emb (ix2 r o))).val = o.val := by
    show win0_2.index t (1 : Fin 2) * 4096 + 1 * o.val = _; omega
  refine block_entry (iblk m c 0 t) (iblk m c 1 t) (V m c main_v12) (V m c main_v11) r o _ ?_ ?_ ?_
  · intro k
    exact xblk_apply m c t r k _ hrow rfl
  · intro k
    refine (wblk_apply m c t k o).trans (congrArg (V m c main_v11) (funext fun a => Fin.ext ?_))
    match a with
    | ⟨0, _⟩ => rfl
    | ⟨1, _⟩ => exact hcol.symm
  · intro k
    exact hx _

/-! ## The array after the run -/

/-- An index of the output array is in point t's block iff each coordinate is in the block's range on its axis. -/
theorem mem_blk (t : Fin cfg0.N) (i : S16384x4096.Idx) :
    i ∈ ((cfg0.win 2).blk t).view.set ↔ ∀ a : Fin 2, win0_2.index t a * S128x4096.size a ≤ (i a).val
      ∧ (i a).val < win0_2.index t a * S128x4096.size a + S128x4096.size a := by
  show i ∈ ((View.whole main_v13).slice (win0_2.rect t)).set ↔ _
  rw [View.set_slice_whole, Rect.mem_set_unit]
  exact Iff.rfl

/-- Row r of the output is written back by point r / 128: the 128 points tile the 16384 rows. -/
theorem cover (i : S16384x4096.Idx) :
    ∃ t : Fin cfg0.N, (cfg0.win 2).flush t = true ∧ i ∈ ((cfg0.win 2).blk t).view.set := by
  have hi0 : (i 0).val < 16384 := (i 0).isLt
  have hi1 : (i 1).val < 4096 := (i 1).isLt
  have hN : cfg0.N = 128 := N_0
  have ht : (i 0).val / 128 < cfg0.N := by rw [hN]; omega
  obtain ⟨-, -, -, -, e4, e5⟩ := idx_facts ⟨(i 0).val / 128, ht⟩
  refine ⟨⟨(i 0).val / 128, ht⟩, flush0_2 _, ?_⟩
  rw [mem_blk]
  intro a
  match a with
  | ⟨0, _⟩ =>
    show win0_2.index ⟨(i 0).val / 128, ht⟩ (0 : Fin 2) * 128 ≤ (i 0).val
      ∧ (i 0).val < win0_2.index ⟨(i 0).val / 128, ht⟩ (0 : Fin 2) * 128 + 128
    rw [e4]; dsimp only; omega
  | ⟨1, _⟩ =>
    show win0_2.index ⟨(i 0).val / 128, ht⟩ (1 : Fin 2) * 4096 ≤ (i 1).val
      ∧ (i 1).val < win0_2.index ⟨(i 0).val / 128, ht⟩ (1 : Fin 2) * 4096 + 4096
    rw [e5]; omega

/-- The output array after the run: the 2-D product of the flattened x with the transposed weight. -/
theorem final (c : Dev nD) (hx : ∀ i, ∃ q : ℝ, (V m c main_v12 : Vec Ideal S16384x4096 .f32) i = (q : EReal)) :
    (dats m 0 c).arrAt 2 cfg0.N = prod2 (V m c main_v12) (V m c main_v11) :=
  (dats m 0 c).arrAt_eq_of_cover 2 _ (fun t _ => flushed_eq m c hx t) cover

end Cert.KernelIdeal.RegionValue

end
-- ==== Proof.KernelRun.lean ====
/-
  The idealized kernel's run, read: its result is the linear layer of x and the ternary weight.

  After the region the host unflattens the output's 16384 rows back to 8 by 2048.  The region's array is the 2-D
  product of the flattened x with the transposed ternary weight, so the unflattened result is, entry by entry,
  the sum over k of x(b, s, k) * W(o, k) (the layout identity of the specification); rounding the weight to the
  narrower format before the transpose changes nothing on exact numbers.  This needs every entry of x real.
-/
import proofs.«176859_j47072841564532_2_alg».proof.Proof.RegionValue

noncomputable section

open Idealize.ShloMosaic Idealize.ShloMosaic.TcCoe Idealize.SL.Sem
open Idealize.ShloMosaic.Pipeline (Dat)
open Idealize.ShloMosaic.ValueIdx

namespace Cert.KernelIdeal.KernelRun

open Cert.KernelIdeal Cert.KernelIdeal.Gen Cert.Spec Cert.KernelIdeal.RegionValue

variable (m : (ℓ : Loc nD τ sig) → Buf (Elt Ideal) ℓ) (ρ : Dev nD → PrngReg)

/-- Flattening keeps every entry: the flattened x is real where x is. -/
theorem flat_real (c : Dev nD)
    (hx : ∀ i, ∃ q : ℝ, (m ((c : Thread nD τ).loc main_arg0) : FVec Ideal S8x2048x4096 .f32) i = (q : EReal)) :
    ∀ i, ∃ q : ℝ, (V m c main_v12 : Vec Ideal S16384x4096 .f32) i = (q : EReal) := by
  intro i
  rw [V_x]
  unfold shapeCast
  exact hx _

/-- The result buffer after the lines that follow the region: the region's array, unflattened. -/
theorem tail_eq (c : Dev nD) (hx : ∀ i, ∃ q : ℝ, (V m c main_v12 : Vec Ideal S16384x4096 .f32) i = (q : EReal)) :
    Pipeline.afterTail₀ cfgs (dats m) 0 (V0 m) [hostOps1] c main_v14
      = (shapeCast S8x2048x4096 (prod2 (V m c main_v12) (V m c main_v11)) shapeCasts_S16384x4096_S8x2048x4096
          : FVec Ideal S8x2048x4096 .f32) := by
  unfold Pipeline.afterTail₀
  show StableHlo.after hostOps1 _ (Proc.devRef .tc main_v14) = _
  after_results
  have e : Pipeline.withArrays (cfgs 0).spec c (V0 m c) (fun w => (dats m 0 c).arrAt w (cfgs 0).N)
      (Proc.devRef .tc main_v13) = prod2 (V m c main_v12) (V m c main_v11) :=
    (Pipeline.withArrays_arr spec0 launch0.win.arr_inj c _ _ 2).trans (final m c hx)
  rw [e]
  rfl

/-- The result buffer is the linear layer of x and the ternary weight. -/
theorem result_eq (c : Dev nD)
    (hx : ∀ i, ∃ q : ℝ, (m ((c : Thread nD τ).loc main_arg0) : FVec Ideal S8x2048x4096 .f32) i = (q : EReal)) :
    Pipeline.afterTail₀ cfgs (dats m) 0 (V0 m) [hostOps1] c main_v14
      = (linear (m ((c : Thread nD τ).loc main_arg0)) (tern (F := Ideal) (m ((c : Thread nD τ).loc main_arg1)))
          : FVec Ideal S8x2048x4096 .f32) := by
  rw [tail_eq m c (flat_real m c hx), V_x, V_w]
  exact unflatten_prod2 _ _ _ _ _

/-- Every weakly fair execution terminates with the result at the linear layer of x and the ternary weight, and
    the arguments unchanged — provided every entry of x is real. -/
theorem run (hx : ∀ (c : Dev nD) i, ∃ q : ℝ,
      (m ((c : Thread nD τ).loc main_arg0) : FVec Ideal S8x2048x4096 .f32) i = (q : EReal)) :
    θ_run defs (onTc (τ := τ) (main (F := Ideal))) ⟨m, fun _ => 0, ρ⟩ fun r => ∀ c : Dev nD,
      r.2.mem ((c : Thread nD τ).loc main_v14)
        = (linear (m ((c : Thread nD τ).loc main_arg0)) (tern (F := Ideal) (m ((c : Thread nD τ).loc main_arg1)))
            : FVec Ideal S8x2048x4096 .f32)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v14 (Pipeline.mem_restRefs_of main_v14 (by decide) (by decide))).trans (result_eq m c (hx c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.KernelRun

end
-- ==== Proof.RefValue.lean ====
/-
  The reference's result is the linear layer.

  The reference multiplies x (8 by 2048 by 4096) with the ternary weight, contracting x's last axis with the
  weight's second axis: entry (b, s, o) is the sum over k of x(b, s, k) * W(o, k) — the specification's function,
  once the contraction's two index maps are named by coordinates.
-/
import proofs.«176859_j47072841564532_2_alg».proof.Proof.Gen.ReferenceIdeal.Read
import proofs.«176859_j47072841564532_2_alg».proof.Proof.Spec

noncomputable section

open Idealize.ShloMosaic Idealize.ShloMosaic.ValueIdx

namespace Cert.ReferenceIdeal.RefValue

open Cert.ReferenceIdeal Cert.ReferenceIdeal.Gen Cert.ReferenceIdeal.Read Cert.Spec

/-- The reference's last stage, as a function of x and the raw weight w, is the linear layer of x and the stage
    that holds the ternary weight. -/
theorem result_eq (x : FVec Ideal S8x2048x4096 .f32) (w : FVec Ideal S4096x4096 .f32) :
    val_main_v10 (F := Ideal) x w = linear x (val_main_v9 (F := Ideal) w) := by
  funext i
  rw [val_main_v10_apply]
  unfold linear
  refine Finset.sum_congr rfl fun k _ => ?_
  have el : lidx_main_v10 i k = lix i k := funext fun a => by
    match a with
    | ⟨0, _⟩ => rfl
    | ⟨1, _⟩ => rfl
    | ⟨2, _⟩ => rfl
  have er : ridx_main_v10 i k = rix i k := funext fun a => by
    match a with
    | ⟨0, _⟩ => rfl
    | ⟨1, _⟩ => rfl
  rw [el, er]

end Cert.ReferenceIdeal.RefValue

end
-- ==== Proof.LibFiniteAll.lean ====
/-
  An array of extended reals all of whose entries have absolute value below +∞ is an array of reals.
  The test is the one a printed predicate makes: the absolute value max x (-x), compared (strictly below)
  with the single-precision pattern of +∞ spread over the array's shape, all comparison bits reduced by
  "and" from the bit 1 into a result of one index. If that result is 1, every entry is a real number:
  |⊥| = |⊤| = ⊤ is not below ⊤, so neither infinity passes the test.
-/
import Idealize.ShloMosaic.Lib.ReduceAll
import Idealize.ShloMosaic.Lib.ValueIdx
import Idealize.ShloMosaic.PureOps.Ideal.Laws

noncomputable section

open Idealize.ShloMosaic

namespace Cert.FiniteAll

/-- The shape of rank zero has one index. -/
instance subsingleton_scalar_idx : Subsingleton (⟨0, ![]⟩ : Shape).Idx :=
  ⟨fun a b => funext fun d => d.elim0⟩

/-- The single-precision pattern of +∞ is ⊤. -/
theorem ofBits_inf_f32 : Ideal.ofBits .f32 0x7F800000#32 = (⊤ : EReal) := by
  simp [Ideal.ofBits, Ideal.ieee]

/-- A bit made from a truth value is 1 exactly when the truth value is true. -/
theorem ofBool_eq_one (b : Bool) : BitVec.ofBool b = 1#1 ↔ b = true := by cases b <;> decide

/-- An extended real whose absolute value is strictly below ⊤ is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The element test: the comparison bit of |x| < +∞ is 1 only at a real number. -/
theorem real_of_cmp_abs (x : EReal)
    (h : FloatOps.cmpf (F := Ideal) (φ := .f32) .olt (FloatOps.hostAbsf (F := Ideal) (φ := .f32) x)
        (FloatOps.ofBits (F := Ideal) .f32 0x7F800000#32) = 1#1) : ∃ r : ℝ, x = (r : EReal) := by
  have h' : Ideal.cmp .olt (max x (-x)) (Ideal.ofBits .f32 0x7F800000#32) = 1#1 := h
  rw [ofBits_inf_f32] at h'
  unfold Ideal.cmp at h'
  rw [ofBool_eq_one] at h'
  exact real_of_abs_lt_top x (of_decide_eq_true h')

/-- The all-reduce of (|x| < +∞) over a shape is 1: every entry of x is a real number. -/
theorem all_real {s : Shape} {axes : List (Fin s.rank)} (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (j : (⟨0, ![]⟩ : Shape).Idx)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu j = 1#1) :
    ∀ i, ∃ r : ℝ, x i = (r : EReal) := by
  intro i
  have hi := Host.reduce_andi_all _ _ hr hu j e i
  exact real_of_cmp_abs (x i) hi

end Cert.FiniteAll

end
-- ==== Proof.Finite.lean ====
/-
  The precondition, decoded for the input x.

  The precondition says: the "and" of two tests is the bit 1, the first being that every entry of x has absolute
  value strictly below +infinity, the second the same for the weight.  From the first, every entry of x is a real
  number.  (The weight's finiteness is not needed: zero times any weight entry is zero on the extended reals.)
-/
import proofs.«176859_j47072841564532_2_alg».proof.Pre_finite_inputs
import proofs.«176859_j47072841564532_2_alg».proof.Proof.LibFiniteAll
import Idealize.ShloMosaic.Lib.Affine

noncomputable section

open Idealize.ShloMosaic

namespace Cert.Finite

open Cert.Pre_finite_inputs

variable [Cert.Pre_finite_inputs.Facts]

/-- If the precondition's function is the bit 1, every entry of its first argument is a real number. -/
theorem x_real (x : FVec Ideal S8x2048x4096 .f32) (w : FVec Ideal S4096x4096 .f32)
    (h : Cert.Pre_finite_inputs.fn (F := Ideal) x w = fun _ => 1#1) : ∀ i, ∃ q : ℝ, x i = (q : EReal) := by
  have h0 := congrFun h ValueIdx.ix0
  dsimp only [Cert.Pre_finite_inputs.fn] at h0
  have h1 := (IntOp.andi_eq_one.mp h0).1
  exact Cert.FiniteAll.all_real x _ _ _ ValueIdx.ix0 h1

end Cert.Finite

end
-- ==== Proof.lean ====
/-
  A ternary linear layer: x (8 by 2048 by 4096) times the transposed ternary quantization of a weight w
  (4096 by 4096), computed by a tiled kernel, against a direct contraction of x with the quantized weight.

  Both programs quantize the weight in the same way, operation by operation and constant by constant:
      W = sign(w) * [ |w| > 0.7 * mean|w| ],
  so W is one shared function of w.  The reference's entry (b, s, o) is the sum over k of x(b, s, k) * W(o, k).
  The kernel flattens x to 16384 rows, transposes W, and at each of 128 grid points takes 128 rows X of the
  flattened x, splits X into a leading part and the remainder X - (leading part), multiplies both by the
  transposed weight and adds the two products; it then unflattens the rows.  Read as exact extended reals the
  leading part of X is X itself (rounding to a narrower format and widening back is the identity — the one rewrite
  the idealization makes, stated as the fourth conjunct), so the remainder is X - X, which is 0 wherever X is real;
  the second product is then a sum of zeros and the kernel's entry is the same sum as the reference's.  This uses
  the precondition for x only: on the extended reals an infinity minus itself is not 0.  The 128 blocks tile the
  output's rows, so the array after the region is one whole-array function, and the flatten / transpose /
  unflatten steps are re-indexings of the same entries.

  The three frames: the two kernels' are the generated frame runs, the reference's is its generated run with the
  result dropped.
-/
import proofs.«176859_j47072841564532_2_alg».proof.Defs
import proofs.«176859_j47072841564532_2_alg».proof.Proof.Gen.Kernel
import proofs.«176859_j47072841564532_2_alg».proof.Proof.Gen.Kernel.Skeleton
import proofs.«176859_j47072841564532_2_alg».proof.Proof.Gen.Kernel.Launch
import proofs.«176859_j47072841564532_2_alg».proof.Proof.Gen.Kernel.Points
import proofs.«176859_j47072841564532_2_alg».proof.Proof.Gen.Kernel.Frame
import proofs.«176859_j47072841564532_2_alg».proof.Proof.Gen.KernelIdeal
import proofs.«176859_j47072841564532_2_alg».proof.Proof.Gen.KernelIdeal.Skeleton
import proofs.«176859_j47072841564532_2_alg».proof.Proof.Gen.KernelIdeal.Launch
import proofs.«176859_j47072841564532_2_alg».proof.Proof.Gen.KernelIdeal.Points
import proofs.«176859_j47072841564532_2_alg».proof.Proof.Gen.KernelIdeal.Frame
import proofs.«176859_j47072841564532_2_alg».proof.Proof.Gen.ReferenceIdeal
import proofs.«176859_j47072841564532_2_alg».proof.Proof.Gen.ReferenceIdeal.Run
import proofs.«176859_j47072841564532_2_alg».proof.Proof.Gen.ReferenceIdeal.Read
import proofs.«176859_j47072841564532_2_alg».proof.Proof.Gen.Pre_finite_inputs
import proofs.«176859_j47072841564532_2_alg».proof.Proof.KernelRun
import proofs.«176859_j47072841564532_2_alg».proof.Proof.RefValue
import proofs.«176859_j47072841564532_2_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments unchanged: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization's one rewrite: rounding a row block to the narrower format and widening it back is the
    identity on exact numbers. -/
theorem preserves : Cert.preserves_Kernel_KernelIdeal := IdealRules.truncf_extf.statement _ .f32 .bf16

/-- The two programs quantize the weight by the same operations and constants: one function of w. -/
theorem tern_eq (w : FVec Ideal Cert.ReferenceIdeal.S4096x4096 .f32) :
    Cert.ReferenceIdeal.Read.val_main_v9 (F := Ideal) w = Cert.KernelIdeal.RegionValue.tern (F := Ideal) w := rfl

/-- From memories agreeing on x and w, with x real, both programs end at the linear layer of x and the ternary
    weight. -/
theorem algebraic : Cert.algebraic_KernelIdeal_ReferenceIdeal := by
  intro m ρ m' ρ' hpre hagree
  have hx : ∀ (c : Dev Cert.KernelIdeal.nD) i, ∃ q : ℝ,
      (m ((c : Thread Cert.KernelIdeal.nD Cert.KernelIdeal.τ).loc Cert.KernelIdeal.main_arg0)
        : FVec Ideal Cert.KernelIdeal.S8x2048x4096 .f32) i = (q : EReal) :=
    fun c => Cert.Finite.x_real _ _ (hpre c)
  refine ⟨_, Cert.KernelIdeal.KernelRun.run m ρ hx, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v10_eq _ _).trans
    ((Cert.ReferenceIdeal.RefValue.result_eq _ _).trans (congrArg _ (tern_eq _)))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
